-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288 : Shape := ⟨2, ![64, 524288]⟩
abbrev S_ : Shape := ⟨0, ![]⟩

class Facts : Prop where
  bcast_S_S64x524288 : S_.BroadcastsInDim S64x524288 (![] : Fin 0 → Fin S64x524288.rank)
  reducesTo_S64x524288_S_d0_1 : S64x524288.ReducesTo [0, 1] S_
  h_S_ : 0 < S_.numel

variable [Facts]

def fn {F : FTy → Type} [FloatOps F] (main_arg0 : FVec F S64x524288 .f32) (main_arg1 : FVec F S64x524288 .f32) : IVec S_ 1 :=
  let main_v0 : FVec F S64x524288 .f32 := Host.absf main_arg0
  let main_cst : FVec F S_ .f32 := constant S_ .f32 0x7F800000#32
  let main_v1 : FVec F S64x524288 .f32 := broadcastInDim S64x524288 ![] bcast_S_S64x524288 main_cst
  let main_v2 : IVec S64x524288 1 := cmpf .olt main_v0 main_v1
  let main_c : IVec S_ 1 := constantI S_ 1 1#1
  let main_v3 : IVec S_ 1 := (fun x v => Host.reduce IntOp.andi x v reducesTo_S64x524288_S_d0_1 h_S_) main_v2 main_c
  let main_v4 : FVec F S64x524288 .f32 := Host.absf main_arg1
  let main_cst_0 : FVec F S_ .f32 := constant S_ .f32 0x7F800000#32
  let main_v5 : FVec F S64x524288 .f32 := broadcastInDim S64x524288 ![] bcast_S_S64x524288 main_cst_0
  let main_v6 : IVec S64x524288 1 := cmpf .olt main_v4 main_v5
  let main_c_1 : IVec S_ 1 := constantI S_ 1 1#1
  let main_v7 : IVec S_ 1 := (fun x v => Host.reduce IntOp.andi x v reducesTo_S64x524288_S_d0_1 h_S_) main_v6 main_c_1
  let main_v8 : IVec S_ 1 := andi main_v3 main_v7
  main_v8
-- ==== Kernel.lean ====
abbrev S64x524288 : Shape := ⟨2, ![64, 524288]⟩
abbrev S64x1 : Shape := ⟨2, ![64, 1]⟩
abbrev S32x32768 : Shape := ⟨2, ![32, 32768]⟩
abbrev S32x1 : Shape := ⟨2, ![32, 1]⟩
abbrev S32 : Shape := ⟨1, ![32]⟩
abbrev S64 : Shape := ⟨1, ![64]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x1, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S32x1, .f32⟩
  | _, _ => ⟨S64x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  inb_S32x1_S32x1_0_0 : ∀ a, (![0, 0] : Fin 2 → Nat) a + S32x1.size a ≤ S32x1.size a
  h_S32x1 : 0 < S32x1.numel
  inb_S32x32768_S32x32768_0_0 : ∀ a, (![0, 0] : Fin 2 → Nat) a + S32x32768.size a ≤ S32x32768.size a
  h_S32x32768 : 0 < S32x32768.numel
  reduces_S32x32768_S32 : S32x32768.Reduces [1] S32
  shapeCasts_S32_S32x1 : S32.ShapeCasts S32x1
  shapeCasts_S32x1_S32x1 : S32x1.ShapeCasts S32x1
  shapeCasts_S64x1_S64 : S64x1.ShapeCasts S64
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S64x524288.size a
  hwx0_0 : ∀ i : grid0.Coords, EltTy.bits .f32 = 32 ∨ (Rect.block (s := S64x524288) S32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S64x524288.size a
  hwx0_1 : ∀ i : grid0.Coords, EltTy.bits .f32 = 32 ∨ (Rect.block (s := S64x524288) S32x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)

variable [Facts₀]

abbrev win0_0 : Pipeline.Window sig grid0 :=
  Pipeline.Window.ofSpec (Memref.whole main_arg0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x524288 : Shape := ⟨2, ![64, 524288]⟩
abbrev S_ : Shape := ⟨0, ![]⟩
abbrev S64 : Shape := ⟨1, ![64]⟩

abbrev nBuf : Space → Nat
  | .hbm => 11
  | .vmem => 0
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x524288, .f32⟩
  | .hbm, ⟨3, _⟩ => ⟨S64x524288, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S64x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S64x524288_S64_d1 : S64x524288.ReducesTo [1] S64
  h_S_ : 0 < S_.numel
  reducesTo_S64_S_d0 : S64.ReducesTo [0] S_

variable [Facts₀]

class Facts : Prop extends Facts₀ where

variable [Facts]
-- ==== Proof.RowSum.lean ====
/-
  Squared row distances of two [64, 524288] arrays of extended reals, summed along a row either at once or in
  16 consecutive blocks of 32768 columns — the same number, because addition of extended reals is commutative
  and associative (nothing here needs the entries finite: the entrywise term `(p - q) * (p - q)` is the same
  extended real on both sides, whatever it is at the infinities).

  Arrays are read at natural-number coordinates (`at2`, zero outside the array) so that a column `32768 * j + l`
  is a plain sum of naturals and a row sum a sum over `Finset.range`.

  Also here: a vector [a] viewed as a column [a, 1] and back, read at an index.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RowSum

open Idealize.ShloMosaic Idealize.ShloMosaic.ValueIdx

/-- A [64, 524288] array of extended reals. -/
abbrev Arr : Type := (⟨2, ![64, 524288]⟩ : Shape).Idx → EReal

/-- The array read at natural-number coordinates: entry `(b, k)` inside the array, zero outside. -/
def at2 (p : Arr) (b k : ℕ) : EReal :=
  if h : b < 64 ∧ k < 524288 then p (ix2 ⟨b, h.1⟩ ⟨k, h.2⟩) else 0

theorem at2_of_lt (p : Arr) {b k : ℕ} (hb : b < 64) (hk : k < 524288) : at2 p b k = p (ix2 ⟨b, hb⟩ ⟨k, hk⟩) :=
  dif_pos ⟨hb, hk⟩

/-- The squared difference of the two arrays at `(b, k)`. -/
def sq (p q : Arr) (b k : ℕ) : EReal := (at2 p b k - at2 q b k) * (at2 p b k - at2 q b k)

/-- Block `j` of row `b`: the squared differences over columns `32768 j … 32768 j + 32767`, summed. -/
def blockSum (p q : Arr) (b j : ℕ) : EReal := ∑ l ∈ Finset.range 32768, sq p q b (32768 * j + l)

/-- Row `b`: the squared differences over all 524288 columns, summed. -/
def rowSum (p q : Arr) (b : ℕ) : EReal := ∑ k ∈ Finset.range 524288, sq p q b k

/-- A sum over the first `L * n` naturals is the sum, over `n` consecutive blocks of length `L`, of the blocks' sums. -/
theorem sum_range_blocks {M : Type*} [AddCommMonoid M] (f : ℕ → M) (L : ℕ) :
    ∀ n : ℕ, ∑ k ∈ Finset.range (L * n), f k = ∑ j ∈ Finset.range n, ∑ l ∈ Finset.range L, f (L * j + l)
  | 0 => by simp
  | n + 1 => by
    rw [Nat.mul_succ, Finset.sum_range_add, Finset.sum_range_succ, sum_range_blocks f L n]

/-- A row's sum is the sum of its 16 blocks' sums. -/
theorem rowSum_eq_blocks (p q : Arr) (b : ℕ) : rowSum p q b = ∑ j ∈ Finset.range 16, blockSum p q b j := by
  unfold rowSum blockSum
  exact sum_range_blocks (sq p q b) 32768 16

/-! ## A vector as a column and back -/

section Column
variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Column

end Cert.RowSum

end
-- ==== Proof.Pieces.lean ====
/-
  What one grid point of the kernel leaves in the output's [32, 1] staging block, as a value.

  The body, at a point whose column-block coordinate is 0, first stores a zero block, and at every point then loads the
  two [32, 32768] input blocks and the output block, and stores "output block + lane sums of the squared difference"
  (the payload `k0_pay2`). So a first point of a row of the grid leaves the payload over the zero block (`k0_pay1`),
  and every other point leaves the payload over what the point before left. Both for any float instance.
-/
import proofs.«135265_j5652176962170_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen

variable {F : FTy → Type} [FloatOps F]

theorem hz : (![0, 0] : Fin 2 → Nat) = fun _ => 0 := funext fun a => by fin_cases a <;> rfl

/-- A point that is not the first of its row of the grid: the one covering store writes the payload of the two input
    blocks and of the block's running contents `xo`; all three loads read whole buffers. -/
theorem out_B (c : Dev nD) (i : grid0.Coords) (a2 : Memref sig .tc .vmem S32x32768 .f32) (h2 : a2.IsWhole)
    (a3 : Memref sig .tc .vmem S32x32768 .f32) (h3 : a3.IsWhole) (a4 : Memref sig .tc .vmem S32x1 .f32) (h4 : a4.IsWhole)
    (hc : ¬cond0_0 i) (x0 x1 : Vec F S32x32768 .f32) (xo : Vec F S32x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  try sl_unfold_words
  rw [View.canon_unit_zero hz]
  simp only [View.readAt_eq_ld, h2.read_unread, h3.read_unread, h4.read_unread, View.ld_unit_zero (S := S32x32768) hz,
    View.ld_unit_zero (S := S32x1) hz]

/-- The first point of a row of the grid: the zero block is stored first, and the load of the output block that follows
    reads it back, so the last store writes the payload over the zero block. -/
theorem out_A (c : Dev nD) (i : grid0.Coords) (a2 : Memref sig .tc .vmem S32x32768 .f32) (h2 : a2.IsWhole)
    (a3 : Memref sig .tc .vmem S32x32768 .f32) (h3 : a3.IsWhole) (a4 : Memref sig .tc .vmem S32x1 .f32) (h4 : a4.IsWhole)
    (hc : cond0_0 i) (x0 x1 : Vec F S32x32768 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  try sl_unfold_words
  rw [View.canon_cons_unit_zero (S := S32x1) hz, View.readCov_unit_zero (S := S32x1) _ hz]
  simp only [View.readAt_eq_ld, h2.read_unread, h3.read_unread, View.ld_unit_zero (S := S32x32768) hz]

end Cert.KernelIdeal.Hand

end
-- ==== Proof.Payload.lean ====
/-
  The body's arithmetic at one entry, over the extended reals.

  Row `r` of the [32, 1] block the body stores is the row's running value plus the sum, over the 32768 lanes of the
  two input blocks' row `r`, of the squared difference `(x0 - x1) * (x0 - x1)`; the block stored first at the start of
  a row of the grid is zero everywhere.
-/
import proofs.«135265_j5652176962170_2_alg».proof.Proof.Gen.KernelIdeal.Skeleton
import proofs.«135265_j5652176962170_2_alg».proof.Proof.RowSum
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Hand

open Cert.KernelIdeal Cert.KernelIdeal.Gen

/-- The block stored at the start of a row of the grid is zero at every entry. -/
theorem pay1_apply (y : S32x1.Idx) : k0_pay1 (F := Ideal) y = 0 := by
  unfold k0_pay1
  exact Ideal.ofBits_zero_f32

/-- A sum along the lanes of a [32, 32768] block, at row `r`: the sum of the row's 32768 entries. -/
theorem laneSum_apply (v : FVec Ideal S32x32768 .f32) (h : S32x32768.Reduces [1] S32) (hφ : FKind.Formats .f32)
    (hacc : (0x00000000#32 : BitVec 32) = FKind.add.neutral .f32 hφ) (r : Fin 32) :
    multiReduction .add [1] S32 v 0x00000000#32 h hφ hacc (ix1 r) = ∑ l : Fin 32768, v (ix2 r l) := by
  refine (Ideal.multiReduction_add_single v 0x00000000#32 h hφ hacc (ix1 r)).trans ?_
  refine Finset.sum_congr rfl fun l _ => congrArg v ?_
  funext a
  match a with
  | ⟨0, _⟩ => rfl
  | ⟨1, _⟩ => rfl

/-- The stored block at row `r`: the running value there plus the lane sum of the squared difference. -/
theorem pay2_apply (x0 x1 : Vec Ideal S32x32768 .f32) (xo : Vec Ideal S32x1 .f32) (r : Fin 32) (u : Fin 1) :
    k0_pay2 (F := Ideal) x0 x1 xo (ix2 r u)
      = xo (ix2 r u) + ∑ l : Fin 32768, (x0 (ix2 r l) - x1 (ix2 r l)) * (x0 (ix2 r l) - x1 (ix2 r l)) := by
  unfold k0_pay2
  have e1 : shapeCast S32x1 xo shapeCasts_S32x1_S32x1 (ix2 r u) = xo (ix2 r u) :=
    congrFun (shapeCast_self xo _) _
  have e2 : shapeCast S32x1 (multiReduction (F := Ideal) .add [1] S32 (mulf (subf x0 x1) (subf x0 x1)) 0x00000000#32
        reduces_S32x32768_S32 (.inl rfl) rfl) shapeCasts_S32_S32x1 (ix2 r u)
      = ∑ l : Fin 32768, (x0 (ix2 r l) - x1 (ix2 r l)) * (x0 (ix2 r l) - x1 (ix2 r l)) :=
    (Cert.RowSum.shapeCast_a_a1_apply _ _ r u).trans (laneSum_apply _ _ _ _ r)
  exact congrArg₂ (fun a b : EReal => a + b) e1 e2

end Cert.KernelIdeal.Hand

end
-- ==== Proof.Blocks.lean ====
/-
  From grid points to the [64, 1] array the call leaves.

  The grid is 2 × 16, walked row-major: point `t` is row `t / 16` of the grid (rows `32 (t / 16) … + 31` of the
  arrays) and column block `t % 16` (columns `32768 (t % 16) … + 32767`). The output block's index is
  `(t / 16, 0)` — it does not move along a row of the grid — and it is written back after the last point of the row
  (`t % 16 = 15`).

  `iblk_apply`: an input block's entry `(r, l)` at point `t` is the argument's entry
  `(32 (t / 16) + r, 32768 (t % 16) + l)`. So one point adds to row `r` of the staging block the block sum
  `blockSum p q (32 (t / 16) + r) (t % 16)` (`step_apply`), and after point `n` the staging block holds, by induction on
  `n`, the sum of the row's blocks `0 … n % 16` (`outsAt_eq`; the start of a row of the grid restarts from the zero
  block). At `n % 16 = 15` that is all 16 blocks, which is what the two write-backs put into rows `0 … 31` and
  `32 … 63` of the array (`flushed_eq`, `cover`, `final`).
-/
import proofs.«135265_j5652176962170_2_alg».proof.Proof.Gen.KernelIdeal.Frame
import proofs.«135265_j5652176962170_2_alg».proof.Proof.RowSum
import proofs.«135265_j5652176962170_2_alg».proof.Proof.Pieces
import proofs.«135265_j5652176962170_2_alg».proof.Proof.Payload
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.RowSum

variable (m : (ℓ : Loc nD τ sig) → Buf (Elt Ideal) ℓ) (ρ : Dev nD → PrngReg)

/-- The first argument array on core `c`, as launched. -/
abbrev P (c : Dev nD) : Arr := m ((c : Thread nD τ).loc main_arg0)
/-- The second argument array on core `c`, as launched. -/
abbrev Q (c : Dev nD) : Arr := m ((c : Thread nD τ).loc main_arg1)

/-- The printed index maps over the grid: both inputs' block index at point `t` is `(t / 16, t % 16)`, the output's
    `(t / 16, 0)`. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0 :=
  (by decide +kernel : ∀ t : Fin grid0.N, _)

/-- The first input's block at point `t`, entry `(r, l)`: the argument at `(32 (t / 16) + r, 32768 (t % 16) + l)`. -/
theorem iblk0_apply (c : Dev nD) (t : Fin cfg0.N) (r : Fin 32) (l : Fin 32768) :
    (iblk m c 0 t : Vec Ideal S32x32768 .f32) (ix2 r l)
      = at2 (P m c) (32 * (t.val / 16) + r.val) (32768 * (t.val % 16) + l.val) := by
  have hN : t.val < 32 := lt_of_lt_of_eq t.isLt (show cfg0.N = 32 from N_0)
  obtain ⟨e0, e1, -⟩ := idx_facts t
  rw [at2_of_lt _ (by omega) (by omega)]
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 32 + 1 * r.val = 32 * (t.val / 16) + r.val; rw [e0]; omega
  | ⟨1, _⟩ => show win0_0.index t 1 * 32768 + 1 * l.val = 32768 * (t.val % 16) + l.val; rw [e1]; omega

/-- The second input's block at point `t`, entry `(r, l)`: the argument at `(32 (t / 16) + r, 32768 (t % 16) + l)`. -/
theorem iblk1_apply (c : Dev nD) (t : Fin cfg0.N) (r : Fin 32) (l : Fin 32768) :
    (iblk m c 1 t : Vec Ideal S32x32768 .f32) (ix2 r l)
      = at2 (Q m c) (32 * (t.val / 16) + r.val) (32768 * (t.val % 16) + l.val) := by
  have hN : t.val < 32 := lt_of_lt_of_eq t.isLt (show cfg0.N = 32 from N_0)
  obtain ⟨-, -, e0, e1, -⟩ := idx_facts t
  rw [at2_of_lt _ (by omega) (by omega)]
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 32 + 1 * r.val = 32 * (t.val / 16) + r.val; rw [e0]; omega
  | ⟨1, _⟩ => show win0_1.index t 1 * 32768 + 1 * l.val = 32768 * (t.val % 16) + l.val; rw [e1]; omega

/-- A row of two [32, 32768] blocks whose entries are the arguments' entries of row `b`, columns `32768 j …`: the lane
    sum of the squared difference is block `j` of row `b`. -/
theorem lanes_eq_blockSum (p q : Arr) (x0 x1 : Vec Ideal S32x32768 .f32) (r : Fin 32) (b j : ℕ)
    (h0 : ∀ l : Fin 32768, x0 (ix2 r l) = at2 p b (32768 * j + l.val))
    (h1 : ∀ l : Fin 32768, x1 (ix2 r l) = at2 q b (32768 * j + l.val)) :
    ∑ l : Fin 32768, (x0 (ix2 r l) - x1 (ix2 r l)) * (x0 (ix2 r l) - x1 (ix2 r l)) = blockSum p q b j := by
  unfold blockSum
  rw [← Fin.sum_univ_eq_sum_range (fun l => sq p q b (32768 * j + l)) 32768]
  refine Finset.sum_congr rfl fun l _ => ?_
  rw [h0 l, h1 l]
  rfl

/-- One point's store, at any entry `y` of the staging block holding `xo`: `xo y` plus the point's block sum of row
    `32 (t / 16) + y₀`. -/
theorem step_apply (c : Dev nD) (t : Fin cfg0.N) (xo : Vec Ideal S32x1 .f32) (y : S32x1.Idx) :
    k0_pay2 (F := Ideal) (iblk m c 0 t) (iblk m c 1 t) xo y
      = xo y + blockSum (P m c) (Q m c) (32 * (t.val / 16) + (y 0).val) (t.val % 16) := by
  obtain ⟨r, u, rfl⟩ : ∃ (r : Fin 32) (u : Fin 1), y = ix2 r u := ⟨y 0, y 1, eq_ix2 y⟩
  refine (pay2_apply (iblk m c 0 t) (iblk m c 1 t) xo r u).trans ?_
  exact congrArg (fun s : EReal => xo (ix2 r u) + s)
    (lanes_eq_blockSum (P m c) (Q m c) (iblk m c 0 t) (iblk m c 1 t) r _ _ (iblk0_apply m c t r) (iblk1_apply m c t r))

/-- The staging block after point `n`: at row `y₀`, the sum of blocks `0 … n % 16` of row `32 (n / 16) + y₀`. -/
def acc (p q : Arr) (n : ℕ) : Vec Ideal S32x1 .f32 :=
  fun y => ∑ j ∈ Finset.range (n % 16 + 1), blockSum p q (32 * (n / 16) + (y 0).val) j

/-- At the start of a row of the grid the point's store over the zero block is the row's block 0. -/
theorem first_eq (c : Dev nD) (t : Fin cfg0.N) (h0 : t.val % 16 = 0) :
    k0_pay2 (F := Ideal) (iblk m c 0 t) (iblk m c 1 t) (k0_pay1 (F := Ideal)) = acc (P m c) (Q m c) t.val := by
  funext y
  rw [step_apply, pay1_apply, zero_add]
  unfold acc
  rw [h0, Nat.zero_add, Finset.sum_range_one]

/-- Elsewhere the point's store over the blocks `0 … n % 16` is the blocks `0 … (n + 1) % 16`. -/
theorem next_eq (c : Dev nD) (n : ℕ) (h : n + 1 < cfg0.N) (h0 : ¬(n + 1) % 16 = 0) :
    k0_pay2 (F := Ideal) (iblk m c 0 ⟨n + 1, h⟩) (iblk m c 1 ⟨n + 1, h⟩) (acc (P m c) (Q m c) n)
      = acc (P m c) (Q m c) (n + 1) := by
  funext y
  rw [step_apply]
  unfold acc
  have e1 : (n + 1) / 16 = n / 16 := by omega
  have e2 : (n + 1) % 16 = n % 16 + 1 := by omega
  show (∑ j ∈ Finset.range (n % 16 + 1), blockSum (P m c) (Q m c) (32 * (n / 16) + (y 0).val) j)
      + blockSum (P m c) (Q m c) (32 * ((n + 1) / 16) + (y 0).val) ((n + 1) % 16)
    = ∑ j ∈ Finset.range ((n + 1) % 16 + 1), blockSum (P m c) (Q m c) (32 * ((n + 1) / 16) + (y 0).val) j
  rw [e1, e2, Finset.sum_range_succ _ (n % 16 + 1)]

/-- What the output's staging block holds after point `n` is the running sum of the row's blocks — by induction on the
    point: a start of a row of the grid restarts from zero, any other point adds its block to what the point before left. -/
theorem outsAt_eq (c : Dev nD) : ∀ (n : ℕ) (h : n < cfg0.N), outsAt0 m c n h = acc (P m c) (Q m c) n
  | 0, h => by
    rw [outsAt0_A m c ⟨0, h⟩ rfl, out_A]
    exact first_eq m c ⟨0, h⟩ rfl
  | n + 1, h => by
    by_cases h0 : (n + 1) % 16 = 0
    · rw [outsAt0_A m c ⟨n + 1, h⟩ h0, out_A]
      exact first_eq m c ⟨n + 1, h⟩ h0
    · rw [outsAt0_B m c ⟨n + 1, h⟩ h0, out_B]
      show k0_pay2 (F := Ideal) (iblk m c 0 ⟨n + 1, h⟩) (iblk m c 1 ⟨n + 1, h⟩) (outsAt0 m c n _) = _
      rw [outsAt_eq c n]
      exact next_eq m c n h h0

/-- The [64, 1] array the call leaves: at row `b`, the sum of the row's 16 block sums. -/
def G (p q : Arr) : S64x1.Idx → EReal := fun i => ∑ j ∈ Finset.range 16, blockSum p q (i 0).val j

/-- What a write-back point `t` (the last of its row of the grid) writes back is block `t` of `G`. -/
theorem flushed_eq (c : Dev nD) (t : Fin cfg0.N) (hf : (cfg0.win 2).flush t = true) :
    (dats m 0 c).flushed 2 t = ((cfg0.win 2).blk t).view.read (Elt Ideal) (G (P m c) (Q m c)) := by
  have h15 : t.val % 16 = 15 := (flush0_2 t).mp hf
  obtain ⟨-, -, -, -, e4, -⟩ := idx_facts t
  show (cfg0.win 2).cut (grid0.coords t) ((dats m 0 c).after 2 t) = _
  rw [after0_2, outsAt_eq]
  funext y
  show acc (P m c) (Q m c) t.val y = G (P m c) (Q m c) (((cfg0.win 2).blk t).view.emb y)
  unfold acc G
  rw [h15]
  refine Finset.sum_congr rfl fun j _ => congrArg (fun b => blockSum (P m c) (Q m c) b j) ?_
  show 32 * (t.val / 16) + (y 0).val = win0_2.index t 0 * 32 + 1 * (y 0).val
  rw [e4]; omega

/-- An entry of the array is in point `t`'s output block iff each coordinate is in the block's range on its axis. -/
theorem mem_blk (t : Fin cfg0.N) (i : S64x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v0).slice (win0_2.rect t)).set ↔ _
  rw [View.set_slice_whole, Rect.mem_set_unit]
  exact Iff.rfl

/-- Every row `b` of the array is written back: by the last point of row `b / 32` of the grid. -/
theorem cover (i : S64x1.Idx) : ∃ t : Fin cfg0.N, (cfg0.win 2).flush t = true ∧ i ∈ ((cfg0.win 2).blk t).view.set := by
  have hi0 : (i 0).val < 64 := idx2_lt0 i
  have hi1 : (i 1).val < 1 := idx2_lt1 i
  have hN : cfg0.N = 32 := N_0
  obtain ⟨t, ht⟩ : ∃ t : Fin cfg0.N, t.val = 16 * ((i 0).val / 32) + 15 := ⟨⟨16 * ((i 0).val / 32) + 15, by rw [hN]; omega⟩, rfl⟩
  obtain ⟨-, -, -, -, e4, e5⟩ := idx_facts t
  refine ⟨t, (flush0_2 t).mpr (by rw [ht]; omega), ?_⟩
  rw [mem_blk]
  intro a
  match a with
  | ⟨0, _⟩ => show win0_2.index t 0 * 32 ≤ (i 0).val ∧ (i 0).val < win0_2.index t 0 * 32 + 32; rw [e4, ht]; omega
  | ⟨1, _⟩ => show win0_2.index t 1 * 1 ≤ (i 1).val ∧ (i 1).val < win0_2.index t 1 * 1 + 1; rw [e5]; omega

/-- So the array ends holding `G` of the arguments. -/
theorem final (c : Dev nD) : (dats m 0 c).arrAt 2 cfg0.N = G (P m c) (Q m c) :=
  (dats m 0 c).arrAt_eq_of_cover 2 (G (P m c) (Q m c)) (flushed_eq m c) cover

end Cert.KernelIdeal.Hand

end
-- ==== Proof.MeanSqrt.lean ====
/-
  The last lines of both programs, as ONE function of a vector of 64 extended reals: the square root of each entry,
  the 64 roots summed from the zero word, the sum divided by the word of 64.0. Both programs apply exactly these
  operations with exactly these two words, so the claim needs only that the vectors going in are equal; nothing
  here is ever opened.
-/
import Idealize.ShloMosaic.PureOps.Ideal

noncomputable section

namespace Cert.RowSum

open Idealize.ShloMosaic

/-- `v ↦ (0 + Σ_b sqrt (v b)) / 64`, spelt with the host operations of both programs at the ideal instance. -/
def meanSqrt (h : (⟨1, ![64]⟩ : Shape).ReducesTo [0] ⟨0, ![]⟩) (h0 : 0 < (⟨0, ![]⟩ : Shape).numel)
    (v : (⟨1, ![64]⟩ : Shape).Idx → EReal) : (⟨0, ![]⟩ : Shape).Idx → EReal :=
  Host.divf (F := Ideal) (φ := .f32)
    (Host.reduceAdd (F := Ideal) (φ := .f32) (Host.sqrt (F := Ideal) (φ := .f32) v)
      (constant (F := Ideal) ⟨0, ![]⟩ .f32 0x00000000#32) h h0)
    (constant (F := Ideal) ⟨0, ![]⟩ .f32 0x42800000#32)

end Cert.RowSum

end
-- ==== Proof.KernelRun.lean ====
/-
  The idealized kernel's run, read: its result is the shared tail `meanSqrt` of the [64, 1] array `G` viewed as a
  vector of 64.

  The lines after the call (view the column as a vector, square roots, their sum from zero, the division by 64) run on
  the memory the call leaves: the call's result array at `G` of the arguments (`final`), everything else as it was.
-/
import proofs.«135265_j5652176962170_2_alg».proof.Proof.Gen.KernelIdeal.Frame
import proofs.«135265_j5652176962170_2_alg».proof.Proof.Blocks
import proofs.«135265_j5652176962170_2_alg».proof.Proof.MeanSqrt
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.RowSum

variable (m : (ℓ : Loc nD τ sig) → Buf (Elt Ideal) ℓ) (ρ : Dev nD → PrngReg)

/-- The call's result column viewed as a vector of 64. -/
def rowsK (c : Dev nD) : (⟨1, ![64]⟩ : Shape).Idx → EReal :=
  shapeCast S64 (G (P m c) (Q m c)) shapeCasts_S64x1_S64

/-- The program's result on core `c`. -/
def result (c : Dev nD) : Buf (Elt Ideal) ((c : Thread nD τ).loc main_v4) :=
  meanSqrt reducesTo_S64_S_d0 h_S_ (rowsK m c)

/-- The lines after the call compute the shared tail of the result column. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v0)
      = G (P m c) (Q m c) :=
    (Pipeline.withArrays_arr spec0 launch0.win.arr_inj c _ _ 2).trans (final m c)
  rw [e]
  rfl

/-- Every weakly fair execution ends with the result at `result` and the two arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Hand

end
-- ==== Proof.RefValue.lean ====
/-
  The reference, read: its row sums are the sums of the rows' 16 block sums.

  The reference subtracts, squares, and sums each row of 524288 entries from the zero word: at the ideal instance
  `0 + Σ_k (p - q)² (b, k)`. The zero word is the extended real 0, the entry is `sq p q b k`, and the row's sum splits
  into its 16 blocks (`rowSum_eq_blocks`). What follows the row sums is the shared tail `meanSqrt`.
-/
import proofs.«135265_j5652176962170_2_alg».proof.Proof.Gen.ReferenceIdeal.Read
import proofs.«135265_j5652176962170_2_alg».proof.Proof.RowSum
import proofs.«135265_j5652176962170_2_alg».proof.Proof.MeanSqrt
import Idealize.ShloMosaic.PureOps.Ideal.Laws
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Gen Cert.ReferenceIdeal.Read Cert.RowSum

/-- The squared difference the reference sums, at row `b` and column `k`. -/
theorem entry_eq (x0 x1 : Arr) (b : Fin 64) (k : Fin 524288) :
    val_main_v1 (F := Ideal) x0 x1 (idx_main_v2 (ix1 b) k) = Cert.RowSum.sq x0 x1 b.val k.val := by
  have e : idx_main_v2 (ix1 b) k = ix2 b k :=
    funext fun a => Fin.ext (by match a with | ⟨0, _⟩ => rfl | ⟨1, _⟩ => rfl)
  rw [e]
  unfold Cert.RowSum.sq
  rw [at2_of_lt x0 b.isLt k.isLt, at2_of_lt x1 b.isLt k.isLt]
  rfl

/-- The reference's row sum at row `b` is the sum of the row's 16 block sums. -/
theorem rowSums_apply (x0 x1 : Arr) (b : Fin 64) :
    val_main_v2 (F := Ideal) x0 x1 (ix1 b) = ∑ j ∈ Finset.range 16, blockSum x0 x1 b.val j := by
  rw [val_main_v2_apply]
  have hz : val_main_cst (F := Ideal) (Shape.Idx.first h_S_) = 0 := Ideal.ofBits_zero_f32
  rw [hz, zero_add, ← rowSum_eq_blocks]
  unfold rowSum
  rw [← Fin.sum_univ_eq_sum_range (fun k => Cert.RowSum.sq x0 x1 b.val k) 524288]
  exact Finset.sum_congr rfl fun k _ => entry_eq x0 x1 b k

/-- The row sums as one vector. -/
def rows (p q : Arr) : (⟨1, ![64]⟩ : Shape).Idx → EReal := fun i => ∑ j ∈ Finset.range 16, blockSum p q (i 0).val j

theorem rowSums_eq (x0 x1 : Arr) : val_main_v2 (F := Ideal) x0 x1 = rows x0 x1 := by
  funext i
  obtain ⟨b, rfl⟩ : ∃ b : Fin 64, i = ix1 b := ⟨i 0, eq_ix1 i⟩
  exact rowSums_apply x0 x1 b

/-- The reference's result: the shared tail of the row sums. -/
theorem result_eq (x0 x1 : Arr) :
    val_main_v5 (F := Ideal) x0 x1 = meanSqrt reducesTo_S64_S_d0 h_S_ (rows x0 x1) :=
  (show val_main_v5 (F := Ideal) x0 x1 = meanSqrt reducesTo_S64_S_d0 h_S_ (val_main_v2 (F := Ideal) x0 x1) from rfl).trans
    (congrArg (meanSqrt reducesTo_S64_S_d0 h_S_) (rowSums_eq x0 x1))

end Cert.ReferenceIdeal.RefValue

end
-- ==== Proof.lean ====
/- The proof of `Cert.Claim`: per-sample L2 distance, averaged over the batch — the kernel against its jnp reference.

   Both programs compute `(0 + Σ_b sqrt (S b)) / 64` where `S b` is row `b`'s sum of the squared differences
   `(p - q)²` over its 524288 columns. The reference sums a row at once; the kernel sums it in 16 blocks of 32768
   columns, one per grid point, accumulated from a zero block in the output's staging block and written back after the
   row's last block. Over the extended reals addition is commutative and associative, so the two groupings are one
   number (Proof/RowSum.lean `rowSum_eq_blocks`); no entry needs to be finite, and the precondition is not used.

   Proof/RowSum.lean    the arithmetic: row sums, block sums, their equality; a column viewed as a vector
   Proof/MeanSqrt.lean  the shared last lines (sqrt, sum, divide by 64) as one function, never opened
   Proof/Pieces.lean    what one grid point leaves in the staging block, for either case of the body's branch
   Proof/Payload.lean   the body's arithmetic at one entry, over the extended reals
   Proof/Blocks.lean    block reads, the running sum by induction on the grid point, the array the call leaves
   Proof/KernelRun.lean the idealized kernel's run with its result named
   Proof/RefValue.lean  the reference's row sums as sums of block sums

   The three frames are the generated ones (the reference's is its generated run with the result dropped); the ideal pass
   rewrote nothing, so `preserves` is `True`. -/
import proofs.«135265_j5652176962170_2_alg».proof.Defs
import proofs.«135265_j5652176962170_2_alg».proof.Proof.Gen.Kernel
import proofs.«135265_j5652176962170_2_alg».proof.Proof.Gen.Kernel.Skeleton
import proofs.«135265_j5652176962170_2_alg».proof.Proof.Gen.Kernel.Launch
import proofs.«135265_j5652176962170_2_alg».proof.Proof.Gen.Kernel.Points
import proofs.«135265_j5652176962170_2_alg».proof.Proof.Gen.Kernel.Frame
import proofs.«135265_j5652176962170_2_alg».proof.Proof.Gen.KernelIdeal
import proofs.«135265_j5652176962170_2_alg».proof.Proof.Gen.KernelIdeal.Skeleton
import proofs.«135265_j5652176962170_2_alg».proof.Proof.Gen.KernelIdeal.Launch
import proofs.«135265_j5652176962170_2_alg».proof.Proof.Gen.KernelIdeal.Points
import proofs.«135265_j5652176962170_2_alg».proof.Proof.Gen.KernelIdeal.Frame
import proofs.«135265_j5652176962170_2_alg».proof.Proof.Gen.ReferenceIdeal
import proofs.«135265_j5652176962170_2_alg».proof.Proof.Gen.ReferenceIdeal.Run
import proofs.«135265_j5652176962170_2_alg».proof.Proof.Gen.ReferenceIdeal.Read
import proofs.«135265_j5652176962170_2_alg».proof.Proof.Gen.Pre_finite_inputs
import proofs.«135265_j5652176962170_2_alg».proof.Proof.KernelRun
import proofs.«135265_j5652176962170_2_alg».proof.Proof.RefValue
import Idealize.ShloMosaic.Adequacy
import Idealize.ShloMosaic.Init

noncomputable section

namespace Cert.Proof

open Idealize.ShloMosaic Idealize.SL.Sem Idealize.ShloMosaic.ValueIdx

/-- The call's result column viewed as a vector is the vector of the rows' sums of block sums: entry `b` of the vector is
    entry `(b, 0)` of the column. -/
theorem rows_eq (m : (ℓ : Loc Cert.KernelIdeal.nD Cert.KernelIdeal.τ Cert.KernelIdeal.sig) → Buf (Elt Ideal) ℓ)
    (c : Dev Cert.KernelIdeal.nD) :
    Cert.KernelIdeal.Hand.rowsK m c
      = Cert.ReferenceIdeal.RefValue.rows (Cert.KernelIdeal.Hand.P m c) (Cert.KernelIdeal.Hand.Q m c) := by
  funext i
  obtain ⟨b, rfl⟩ : ∃ b : Fin 64, i = ix1 b := ⟨i 0, eq_ix1 i⟩
  exact Cert.RowSum.shapeCast_a1_a_apply _ _ b

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments both programs end at the shared tail of the same 64 row sums. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v5_eq _ _).trans ?_
  refine (Cert.ReferenceIdeal.RefValue.result_eq _ _).trans ?_
  rw [(hagree c).1, (hagree c).2]
  exact congrArg (Cert.RowSum.meanSqrt _ _) (rows_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
